-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S128x64 .f32) (main_arg3 : FVec F S128x64 .f32) (main_arg4 : FVec F S128 .f32) (main_arg5 : FVec F S128x128 .f32) (main_arg6 : FVec F S128x128 .f32) (main_arg7 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S64x128 : Shape := ⟨2, ![64, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x128, .f32⟩
  | .hbm, ⟨41, _⟩ => ⟨S64x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S64x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
import proofs.«155530_j81965155877636_1_alg».proof.Proof.Gen.KernelIdeal.Frame

/-!
# The run of the two-layer program, with its result array named

Every weakly fair execution of the program terminates, nothing faulting, and in the final state the result array
holds what the second pipelined region leaves in it — the fold of the region's write-backs over the contents the
region was entered with — while the eight argument arrays hold what they held at launch. The run is the chain of the
program's four segments (host operations, first region, host operations, second region); the final thread state holds
every unscoped buffer at the last boundary's contents, and the post reads the result array and the arguments off it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unification with the statement below, which has to unfold
-- definitions inside the types of the unknowns
set_option backward.isDefEq.respectTransparency.types false in
/-- The run, with the result array after it named: the last boundary's contents at the result's buffer. -/
theorem run_named : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibRowBroadcast.lean ====
import Idealize.ShloMosaic.Lib.ValueLayout
import Idealize.ShloMosaic.Lib.Pipeline.Value

/-!
# One row repeated down the rows, by a `broadcast_in_dim`

A `[1, b]` array broadcast to `[a, b]` with both axes kept in place (dimensions `[0, 1]`: the operand's unit axis
stretched along the rows) reads, at `(p, q)`, the operand's one row at `q`, whatever the row `p` is — the form in which
a bias row reaches every row of a batch when it is added on the host. Any `a`, `b`.
-/

namespace Cert.LibRowBroadcast

open Idealize.ShloMosaic Idealize.ShloMosaic.ValueIdx

/-- One row `[1, b]` broadcast along the rows of `[a, b]` reads, at `(p, q)`, the row at `q`. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

end Cert.LibRowBroadcast
-- ==== Proof.LibSageLayer.lean ====
import proofs.«155530_j81965155877636_1_alg».proof.Proof.LibPlainDot
import proofs.«155530_j81965155877636_1_alg».proof.Proof.LibRowBroadcast
import Idealize.ShloMosaic.Lib.ValueIdx
import Idealize.ShloMosaic.Lib.ValueLayout
import Idealize.ShloMosaic.Lib.Pipeline.Value
import Idealize.ShloMosaic.PureOps.Ideal.Laws

/-!
# One mean-aggregating graph layer, entry by entry

A layer takes the node features `x` and an aggregate `agg` of the neighbours' features, both `[N, K]`, two weight
matrices `[K, C]` and a bias row, and returns the `[N, C]` array whose entry `(p, q)` is
`(∑ k, agg (p, k) · wl (k, q) + ∑ k, x (p, k) · wr (k, q)) + b q`, optionally rectified against the zero word.
Over the extended reals addition is commutative and associative at the infinities too, so the order in which the two
products and the bias are added does not matter; and the mean aggregate may be formed either by dividing a sum by
`max deg 1` or by multiplying it with `1 / max deg 1`, because the divisor is at least one, hence never zero, and
then the quotient is by definition the product with the inverse. Neither fact needs an entry to be finite.
-/

noncomputable section

namespace Cert.LibSageLayer

open Idealize.ShloMosaic Idealize.ShloMosaic.ValueIdx
open scoped BigOperators

abbrev S0 : Shape := ⟨0, ![]⟩
abbrev S1 (a : ℕ) : Shape := ⟨1, ![a]⟩
abbrev S2 (a b : ℕ) : Shape := ⟨2, ![a, b]⟩

/-- The word of `1.0` denotes the real number one. -/
theorem one_word : Ideal.ofBits .f32 0x3F800000#32 = 1 := by
  simp [Ideal.ofBits, Ideal.ieee, -EReal.coe_mul]; norm_num

/-- Scaling by the reciprocal of a divisor that is at least one is dividing by it: the divisor is not zero, so
    both quotients are products with its inverse. -/
theorem mul_recip (a d : EReal) : a * Ideal.div 1 (max d 1) = Ideal.div a (max d 1) := by
  have h : max d 1 ≠ 0 := (lt_of_lt_of_le zero_lt_one (le_max_right d 1)).ne'
  unfold Ideal.div
  rw [if_neg h, if_neg h, one_mul]

variable {N K C : ℕ}

/-- One entry of the layer before rectification. -/
def entry (x agg : (S2 N K).Idx → EReal) (wl wr : (S2 K C).Idx → EReal) (b : (S2 1 C).Idx → EReal)
    (p : Fin N) (q : Fin C) : EReal :=
  (∑ k : Fin K, agg (ix2 p k) * wl (ix2 k q) + ∑ k : Fin K, x (ix2 p k) * wr (ix2 k q)) + b (ix2 (0 : Fin 1) q)

/-- The layer without rectification, as one array. -/
def lin (x agg : (S2 N K).Idx → EReal) (wl wr : (S2 K C).Idx → EReal) (b : (S2 1 C).Idx → EReal) :
    (S2 N C).Idx → EReal := fun i => entry x agg wl wr b (i 0) (i 1)

/-- The rectified layer, as one array. -/
def rect (x agg : (S2 N K).Idx → EReal) (wl wr : (S2 K C).Idx → EReal) (b : (S2 1 C).Idx → EReal) :
    (S2 N C).Idx → EReal := fun i => max (entry x agg wl wr b (i 0) (i 1)) (Ideal.ofBits .f32 0x00000000#32)

theorem lin_ix2 (x agg : (S2 N K).Idx → EReal) (wl wr : (S2 K C).Idx → EReal) (b : (S2 1 C).Idx → EReal)
    (p : Fin N) (q : Fin C) : lin x agg wl wr b (ix2 p q) = entry x agg wl wr b p q := rfl

theorem rect_ix2 (x agg : (S2 N K).Idx → EReal) (wl wr : (S2 K C).Idx → EReal) (b : (S2 1 C).Idx → EReal)
    (p : Fin N) (q : Fin C) :
    rect x agg wl wr b (ix2 p q) = max (entry x agg wl wr b p q) (Ideal.ofBits .f32 0x00000000#32) := rfl

/-- A bias row `[1, b]` repeated down `a` rows by a vector broadcast reads, at `(p, q)`, the row at `q`. -/
theorem row_down {α : Type} {a b : ℕ} (v : (S2 1 b).Idx → α) (h : (S2 1 b).Broadcasts (S2 a b)) (p : Fin a) (q : Fin b) :
    broadcastTo (S2 a b) v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spelling of the layer — the aggregate's product, plus the bias vector stood up as a row and repeated
    down the rows, plus the features' product — is `lin` with the bias kept as a one-row matrix. -/
theorem host_lin (d : DotDims (S2 N K) (S2 K C) (S2 N C)) (hd : Cert.LibPlainDot.Plain d)
    (x agg : FVec Ideal (S2 N K) .f32) (wl wr : FVec Ideal (S2 K C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) :
    addf (addf (Host.dotGeneral d none agg wl) (broadcastInDim (S2 N C) ![0, 1] h2 (broadcastInDim (S2 1 C) ![1] h1 b)))
        (Host.dotGeneral d none x wr)
      = lin x agg wl wr (shapeCast (S2 1 C) b hc) := by
  funext i
  obtain ⟨p, q, rfl⟩ : ∃ (p : Fin N) (q : Fin C), i = ix2 p q := ⟨i 0, i 1, eq_ix2 i⟩
  have e1 : Host.dotGeneral d none agg wl (ix2 p q) = ∑ k : Fin K, agg (ix2 p k) * wl (ix2 k q) := by
    simp only [Host.dotGeneral]
    exact Cert.LibPlainDot.dotGeneral_apply d hd none _ agg wl p q
  have e2 : Host.dotGeneral d none x wr (ix2 p q) = ∑ k : Fin K, x (ix2 p k) * wr (ix2 k q) := by
    simp only [Host.dotGeneral]
    exact Cert.LibPlainDot.dotGeneral_apply d hd none _ x wr p q
  have hq : q.val = if C = 1 then 0 else q.val := by
    split
    · have := q.isLt; omega
    · rfl
  have e3 : broadcastInDim (S2 N C) ![0, 1] h2 (broadcastInDim (S2 1 C) ![1] h1 b) (ix2 p q)
      = shapeCast (S2 1 C) b hc (ix2 (0 : Fin 1) q) := by
    rw [Cert.LibRowBroadcast.broadcastInDim_1b_ab_apply _ h2 p q, shapeCast_a_1a_apply,
      broadcastInDim_apply ![1] h1 b (ix2 (0 : Fin 1) q) (ix1 q) (fun a => by
        match a with
        | ⟨0, _⟩ => exact hq)]
  rw [lin_ix2]
  show (Host.dotGeneral d none agg wl (ix2 p q) + broadcastInDim (S2 N C) ![0, 1] h2 (broadcastInDim (S2 1 C) ![1] h1 b) (ix2 p q))
      + Host.dotGeneral d none x wr (ix2 p q) = _
  rw [e1, e2, e3]
  exact add_right_comm _ _ _

/-- The host's rectification against a broadcast zero word, entry by entry. -/
theorem host_max_zero (Y : FVec Ideal (S2 N C) .f32) (hz : S0.BroadcastsInDim (S2 N C) ![]) :
    maximumf Y (broadcastInDim (S2 N C) ![] hz (constant S0 .f32 0x00000000#32))
      = fun i => max (Y i) (Ideal.ofBits .f32 0x00000000#32) := by
  funext i
  show max (Y i) (broadcastInDim (s := S0) (S2 N C) ![] hz (constant (F := Ideal) S0 .f32 0x00000000#32) i) = _
  rw [broadcastInDim_apply ![] hz _ i ix0 (fun a => a.elim0)]
  rfl

/-- The host's spelling of the rectified layer is `rect`. -/
theorem host_rect (d : DotDims (S2 N K) (S2 K C) (S2 N C)) (hd : Cert.LibPlainDot.Plain d)
    (x agg : FVec Ideal (S2 N K) .f32) (wl wr : FVec Ideal (S2 K C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) (hz : S0.BroadcastsInDim (S2 N C) ![]) :
    maximumf (addf (addf (Host.dotGeneral d none agg wl) (broadcastInDim (S2 N C) ![0, 1] h2 (broadcastInDim (S2 1 C) ![1] h1 b)))
        (Host.dotGeneral d none x wr)) (broadcastInDim (S2 N C) ![] hz (constant S0 .f32 0x00000000#32))
      = rect x agg wl wr (shapeCast (S2 1 C) b hc) := by
  rw [host_max_zero, host_lin d hd x agg wl wr b h1 h2 hc]
  rfl

/-- The mean aggregate: the neighbour sums scaled by the column of reciprocals `1 / max deg 1` are the neighbour
    sums divided by the column of `max deg 1`. -/
theorem mean_eq (A : FVec Ideal (S2 N C) .f32) (deg : FVec Ideal (S1 N) .f32)
    (hs : S0.BroadcastsInDim (S1 N) ![]) (hb0 : (S1 N).BroadcastsInDim (S2 N 1) ![0])
    (hb1 : (S2 N 1).BroadcastsInDim (S2 N C) ![0, 1]) :
    mulf A (broadcastInDim (S2 N C) ![0, 1] hb1 (broadcastInDim (S2 N 1) ![0] hb0
        (Host.divf (broadcastInDim (S1 N) ![] hs (constant S0 .f32 0x3F800000#32))
          (maximumf deg (broadcastInDim (S1 N) ![] hs (constant S0 .f32 0x3F800000#32))))))
      = Host.divf A (broadcastInDim (S2 N C) ![0, 1] hb1 (broadcastInDim (S2 N 1) ![0] hb0
          (maximumf deg (broadcastInDim (S1 N) ![] hs (constant S0 .f32 0x3F800000#32))))) := by
  funext i
  obtain ⟨p, q, rfl⟩ : ∃ (p : Fin N) (q : Fin C), i = ix2 p q := ⟨i 0, i 1, eq_ix2 i⟩
  have hp : p.val = if N = 1 then 0 else p.val := by
    split
    · have := p.isLt; omega
    · rfl
  have col : ∀ v : (S1 N).Idx → EReal,
      broadcastInDim (S2 N C) ![0, 1] hb1 (broadcastInDim (S2 N 1) ![0] hb0 v) (ix2 p q) = v (ix1 p) := fun v => by
    rw [broadcastInDim_apply ![0, 1] hb1 _ (ix2 p q) (ix2 p (0 : Fin 1)) (fun a => by
        match a with
        | ⟨0, _⟩ => exact hp
        | ⟨1, _⟩ => rfl),
      broadcastInDim_apply ![0] hb0 v (ix2 p (0 : Fin 1)) (ix1 p) (fun a => by
        match a with
        | ⟨0, _⟩ => exact hp)]
  have one : broadcastInDim (s := S0) (S1 N) ![] hs (constant (F := Ideal) S0 .f32 0x3F800000#32) (ix1 p) = (1 : EReal) := by
    rw [broadcastInDim_apply ![] hs _ (ix1 p) ix0 (fun a => a.elim0)]
    exact one_word
  show A (ix2 p q) * broadcastInDim (s := S2 N 1) (S2 N C) ![0, 1] hb1 (broadcastInDim (s := S1 N) (S2 N 1) ![0] hb0 _) (ix2 p q)
    = Ideal.div (A (ix2 p q))
      (broadcastInDim (s := S2 N 1) (S2 N C) ![0, 1] hb1 (broadcastInDim (s := S1 N) (S2 N 1) ![0] hb0 _) (ix2 p q))
  rw [col, col]
  show A (ix2 p q) * Ideal.div (broadcastInDim (s := S0) (S1 N) ![] hs (constant (F := Ideal) S0 .f32 0x3F800000#32) (ix1 p))
      (max (deg (ix1 p)) (broadcastInDim (s := S0) (S1 N) ![] hs (constant (F := Ideal) S0 .f32 0x3F800000#32) (ix1 p)))
    = Ideal.div (A (ix2 p q))
      (max (deg (ix1 p)) (broadcastInDim (s := S0) (S1 N) ![] hs (constant (F := Ideal) S0 .f32 0x3F800000#32) (ix1 p)))
  rw [one]
  exact mul_recip _ _

end Cert.LibSageLayer

end
-- ==== Proof.Payload.lean ====
import proofs.«155530_j81965155877636_1_alg».proof.Proof.Gen.KernelIdeal.Skeleton
import proofs.«155530_j81965155877636_1_alg».proof.Proof.LibSageLayer

/-!
# What one grid point computes, entry by entry

Both kernel bodies load a tile of 5000 rows of the features and of the aggregate, the two weight matrices and the
bias row, multiply the (rounded, which over the extended reals is no change) tiles with the weights into zero
accumulators, add the two products, add the bias row repeated down the tile, and — the first body only — rectify
against the zero word. Read at the entry `(p, q)` of the tile that is the layer's entry of the loaded tiles.
-/

noncomputable section

namespace Cert.KernelIdeal.Hand

open Cert.KernelIdeal Cert.KernelIdeal.Gen Cert.KernelIdeal.Facts₀ Cert.KernelIdeal.Facts
open Idealize.ShloMosaic Idealize.ShloMosaic.ValueIdx Cert.LibSageLayer
open scoped BigOperators

theorem plain64 : Cert.LibPlainDot.Plain dot_S5000x64_S64x128_S5000x128_1_0_0_1_n_n := ⟨rfl, rfl, rfl, rfl, rfl, rfl⟩
theorem plain128 : Cert.LibPlainDot.Plain dot_S5000x128_S128x128_S5000x128_1_0_0_1_n_n := ⟨rfl, rfl, rfl, rfl, rfl, rfl⟩

/-- The first body's stored tile at `(p, q)`: the rectified layer entry of the loaded tiles. -/
theorem pay0_apply (x0 x1 : Vec Ideal S5000x64 .f32) (x2 x3 : Vec Ideal S64x128 .f32) (x4 : Vec Ideal S1x128 .f32)
    (p : Fin 5000) (q : Fin 128) :
    k0_pay1 (F := Ideal) x0 x1 x2 x3 x4 (ix2 p q)
      = max (entry (N := 5000) (K := 64) (C := 128) x0 x1 x2 x3 x4 p q) (Ideal.ofBits .f32 0x00000000#32) := by
  unfold k0_pay1 entry
  refine congrArg₂ max (congrArg₂ (· + ·) (congrArg₂ (· + ·) ?_ ?_) ?_) rfl
  · refine (Cert.LibPlainDot.matmul_zero_apply _ plain64 none _ _ p q).trans ?_
    rw [shapeCast_self, shapeCast_self]
    rfl
  · refine (Cert.LibPlainDot.matmul_zero_apply _ plain64 none _ _ p q).trans ?_
    rw [shapeCast_self]
    rfl
  · refine (row_down _ _ p q).trans ?_
    rw [shapeCast_self]

/-- The second body's stored tile at `(p, q)`: the layer entry of the loaded tiles, not rectified. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = entry (N := 5000) (K := 128) (C := 128) x0 x1 x2 x3 x4 p q := by
  unfold k1_pay1 entry
  refine congrArg₂ (· + ·) (congrArg₂ (· + ·) ?_ ?_) ?_
  · refine (Cert.LibPlainDot.matmul_zero_apply _ plain128 none _ _ p q).trans ?_
    simp only [shapeCast_self]
    rfl
  · refine (Cert.LibPlainDot.matmul_zero_apply _ plain128 none _ _ p q).trans ?_
    simp only [shapeCast_self]
    rfl
  · refine (row_down _ _ p q).trans ?_
    rw [shapeCast_self]

end Cert.KernelIdeal.Hand

end
-- ==== Proof.Blocks.lean ====
import proofs.«155530_j81965155877636_1_alg».proof.Proof.Gen.KernelIdeal.Frame
import proofs.«155530_j81965155877636_1_alg».proof.Proof.Payload
import Idealize.ShloMosaic.Lib.Pipeline.Value
import Idealize.ShloMosaic.Lib.Tactic

/-!
# From tiles to whole arrays

Each pipelined region walks twenty grid points; at point `t` it is handed rows `5000 t … 5000 t + 4999` of the
features and of the aggregate, the whole weight matrices and the whole bias row, and writes back rows
`5000 t … 5000 t + 4999` of its result. A layer's entry in row `r` depends only on row `r` of the features and of the
aggregate, so what point `t` writes back is block `t` of ONE whole-array function — the layer of the arrays the region
was entered with — and since the twenty blocks cover the result array, that function is what the array holds after the
region.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Cert.LibSageLayer
open Idealize.ShloMosaic.Pipeline (Dat)
open scoped BigOperators

theorem hz : (![0, 0] : Fin 2 → Nat) = fun _ => 0 := funext fun a => by fin_cases a <;> rfl

/-! ## Region 0 -/

/-- One entry of the tile a point stores is the layer's entry of the whole arrays, when the tile's rows of the
    features and of the aggregate are the arrays' rows at the entry's row. -/
theorem tile0 (x0 x1 : Vec Ideal S5000x64 .f32) (x2 x3 : Vec Ideal S64x128 .f32) (x4 : Vec Ideal S1x128 .f32)
    (X A : S100000x64.Idx → EReal) (y : S5000x128.Idx) (i : S100000x128.Idx)
    (hi1 : (i 1).val = (y 1).val)
    (h0 : ∀ k : Fin 64, x0 (ix2 (y 0) k) = X (ix2 (i 0) k))
    (h1 : ∀ k : Fin 64, x1 (ix2 (y 0) k) = A (ix2 (i 0) k)) :
    k0_pay1 (F := Ideal) x0 x1 x2 x3 x4 y = rect (N := 100000) (K := 64) (C := 128) X A x2 x3 x4 i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  subst hQ
  have h0' : ∀ k : Fin 64, x0 (ix2 p k) = X (ix2 P k) := h0
  have h1' : ∀ k : Fin 64, x1 (ix2 p k) = A (ix2 P k) := h1
  rw [pay0_apply, rect_ix2]
  unfold entry
  simp only [h0', h1']

/-- The printed index maps over the grid: the row-tiled windows sit at block row `t`, the resident ones at the origin. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

/-- The resident left weights' block is the whole matrix. -/
theorem wblk0_2 (c : Dev nD) (t : Fin cfg0.N) : iblk0 V c 2 t = V c main_v25 := by
  obtain ⟨-, -, -, -, e0, e1, -⟩ := idx_facts0 t
  funext u
  unfold iblk0
  rw [View.read_apply]
  show V c main_v25 _ = V c main_v25 u
  refine congrArg _ (funext fun a => Fin.ext ?_)
  match a with
  | ⟨0, _⟩ => show win0_2.index t (0 : Fin 2) * 64 + 1 * (u 0).val = (u 0).val; omega
  | ⟨1, _⟩ => show win0_2.index t (1 : Fin 2) * 128 + 1 * (u 1).val = (u 1).val; omega

/-- The resident right weights' block is the whole matrix. -/
theorem wblk0_3 (c : Dev nD) (t : Fin cfg0.N) : iblk0 V c 3 t = V c main_v26 := by
  obtain ⟨-, -, -, -, -, -, e0, e1, -⟩ := idx_facts0 t
  funext u
  unfold iblk0
  rw [View.read_apply]
  show V c main_v26 _ = V c main_v26 u
  refine congrArg _ (funext fun a => Fin.ext ?_)
  match a with
  | ⟨0, _⟩ => show win0_3.index t (0 : Fin 2) * 64 + 1 * (u 0).val = (u 0).val; omega
  | ⟨1, _⟩ => show win0_3.index t (1 : Fin 2) * 128 + 1 * (u 1).val = (u 1).val; omega

/-- The resident bias row's block is the whole row. -/
theorem wblk0_4 (c : Dev nD) (t : Fin cfg0.N) : iblk0 V c 4 t = V c main_v27 := by
  obtain ⟨-, -, -, -, -, -, -, -, e0, e1, -⟩ := idx_facts0 t
  funext u
  unfold iblk0
  rw [View.read_apply]
  show V c main_v27 _ = V c main_v27 u
  refine congrArg _ (funext fun a => Fin.ext ?_)
  match a with
  | ⟨0, _⟩ => show win0_4.index t (0 : Fin 2) * 1 + 1 * (u 0).val = (u 0).val; omega
  | ⟨1, _⟩ => show win0_4.index t (1 : Fin 2) * 128 + 1 * (u 1).val = (u 1).val; omega

/-- A row of the features' tile at point `t` is row `5000 t + p` of the features. -/
theorem xblk0_0 (c : Dev nD) (t : Fin cfg0.N) (p : Fin 5000) (k : Fin 64) (i : S100000x64.Idx)
    (hi0 : (i 0).val = t.val * 5000 + p.val) (hi1 : (i 1).val = k.val) :
    (iblk0 V c 0 t : Vec Ideal S5000x64 .f32) (ix2 p k) = (V c main_arg0 : S100000x64.Idx → EReal) i := by
  obtain ⟨e0, e1, -⟩ := idx_facts0 t
  unfold iblk0
  rw [View.read_apply]
  show V c main_arg0 _ = V c main_arg0 i
  refine congrArg _ (funext fun a => Fin.ext ?_)
  match a with
  | ⟨0, _⟩ => show win0_0.index t (0 : Fin 2) * 5000 + 1 * p.val = (i 0).val; omega
  | ⟨1, _⟩ => show win0_0.index t (1 : Fin 2) * 64 + 1 * k.val = (i 1).val; omega

/-- A row of the aggregate's tile at point `t` is row `5000 t + p` of the aggregate. -/
theorem xblk0_1 (c : Dev nD) (t : Fin cfg0.N) (p : Fin 5000) (k : Fin 64) (i : S100000x64.Idx)
    (hi0 : (i 0).val = t.val * 5000 + p.val) (hi1 : (i 1).val = k.val) :
    (iblk0 V c 1 t : Vec Ideal S5000x64 .f32) (ix2 p k) = (V c main_v24 : S100000x64.Idx → EReal) i := by
  obtain ⟨-, -, e0, e1, -⟩ := idx_facts0 t
  unfold iblk0
  rw [View.read_apply]
  show V c main_v24 _ = V c main_v24 i
  refine congrArg _ (funext fun a => Fin.ext ?_)
  match a with
  | ⟨0, _⟩ => show win0_1.index t (0 : Fin 2) * 5000 + 1 * p.val = (i 0).val; omega
  | ⟨1, _⟩ => show win0_1.index t (1 : Fin 2) * 64 + 1 * k.val = (i 1).val; omega

/-- What point `t` writes back is block `t` of the layer of the arrays the region was entered with. -/
theorem flushed0_eq (c : Dev nD) (t : Fin cfg0.N) :
    (dat0 V c).flushed 5 t = ((cfg0.win 5).blk t).view.read (Elt Ideal)
      (rect (N := 100000) (K := 64) (C := 128) (V c main_arg0) (V c main_v24) (V c main_v25) (V c main_v26) (V c main_v27)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  rw [wblk0_2, wblk0_3, wblk0_4]
  obtain ⟨-, -, -, -, -, -, -, -, -, -, e0, e1⟩ := idx_facts0 t
  funext j
  rw [View.read_apply]
  refine tile0 _ _ _ _ _ _ _ j _ ?_ (fun k => ?_) (fun k => ?_)
  · show win0_5.index t (1 : Fin 2) * 128 + 1 * (j 1).val = (j 1).val
    omega
  · refine xblk0_0 V c t (j 0) k _ ?_ rfl
    show win0_5.index t (0 : Fin 2) * 5000 + 1 * (j 0).val = t.val * 5000 + (j 0).val
    omega
  · refine xblk0_1 V c t (j 0) k _ ?_ rfl
    show win0_5.index t (0 : Fin 2) * 5000 + 1 * (j 0).val = t.val * 5000 + (j 0).val
    omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- The twenty row blocks cover the result array: row `r` lies in block `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk0]
  obtain ⟨-, -, -, -, -, -, -, -, -, -, e0, e1⟩ := idx_facts0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]
    show (i 0).val / 5000 * 5000 ≤ (i 0).val ∧ (i 0).val < (i 0).val / 5000 * 5000 + 5000
    omega
  | ⟨1, _⟩ =>
    show win0_5.index _ (1 : Fin 2) * 128 ≤ (i 1).val ∧ (i 1).val < win0_5.index _ (1 : Fin 2) * 128 + 128
    rw [e1]
    omega

/-- After the region its result array holds the layer of the arrays the region was entered with. -/
theorem final0 (c : Dev nD) : (dat0 V c).arrAt 5 cfg0.N
    = rect (N := 100000) (K := 64) (C := 128) (V c main_arg0) (V c main_v24) (V c main_v25) (V c main_v26) (V c main_v27) :=
  (dat0 V c).arrAt_eq_of_cover 5 _ (fun t _ => flushed0_eq V c t) cover0
end

/-! ## Region 1 -/

/-- One entry of the tile a point stores is the layer's entry of the whole arrays, when the tile's rows of the
    features and of the aggregate are the arrays' rows at the entry's row. -/
theorem tile1 (x0 x1 : Vec Ideal S5000x128 .f32) (x2 x3 : Vec Ideal S128x128 .f32) (x4 : Vec Ideal S1x128 .f32)
    (X A : S100000x128.Idx → EReal) (y : S5000x128.Idx) (i : S100000x128.Idx)
    (hi1 : (i 1).val = (y 1).val)
    (h0 : ∀ k : Fin 128, x0 (ix2 (y 0) k) = X (ix2 (i 0) k))
    (h1 : ∀ k : Fin 128, x1 (ix2 (y 0) k) = A (ix2 (i 0) k)) :
    k1_pay1 (F := Ideal) x0 x1 x2 x3 x4 y = lin (N := 100000) (K := 128) (C := 128) X A x2 x3 x4 i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hQ : Q = q := Fin.ext hi1
  subst hQ
  have h0' : ∀ k : Fin 128, x0 (ix2 p k) = X (ix2 P k) := h0
  have h1' : ∀ k : Fin 128, x1 (ix2 p k) = A (ix2 P k) := h1
  rw [pay1_apply, lin_ix2]
  unfold entry
  simp only [h0', h1']

/-- The printed index maps over the grid: the row-tiled windows sit at block row `t`, the resident ones at the origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- The resident left weights' block is the whole matrix. -/
theorem wblk1_2 (c : Dev nD) (t : Fin cfg1.N) : iblk1 V c 2 t = V c main_v42 := by
  obtain ⟨-, -, -, -, e0, e1, -⟩ := idx_facts1 t
  funext u
  unfold iblk1
  rw [View.read_apply]
  show V c main_v42 _ = V c main_v42 u
  refine congrArg _ (funext fun a => Fin.ext ?_)
  match a with
  | ⟨0, _⟩ => show win1_2.index t (0 : Fin 2) * 128 + 1 * (u 0).val = (u 0).val; omega
  | ⟨1, _⟩ => show win1_2.index t (1 : Fin 2) * 128 + 1 * (u 1).val = (u 1).val; omega

/-- The resident right weights' block is the whole matrix. -/
theorem wblk1_3 (c : Dev nD) (t : Fin cfg1.N) : iblk1 V c 3 t = V c main_v43 := by
  obtain ⟨-, -, -, -, -, -, e0, e1, -⟩ := idx_facts1 t
  funext u
  unfold iblk1
  rw [View.read_apply]
  show V c main_v43 _ = V c main_v43 u
  refine congrArg _ (funext fun a => Fin.ext ?_)
  match a with
  | ⟨0, _⟩ => show win1_3.index t (0 : Fin 2) * 128 + 1 * (u 0).val = (u 0).val; omega
  | ⟨1, _⟩ => show win1_3.index t (1 : Fin 2) * 128 + 1 * (u 1).val = (u 1).val; omega

/-- The resident bias row's block is the whole row. -/
theorem wblk1_4 (c : Dev nD) (t : Fin cfg1.N) : iblk1 V c 4 t = V c main_v44 := by
  obtain ⟨-, -, -, -, -, -, -, -, e0, e1, -⟩ := idx_facts1 t
  funext u
  unfold iblk1
  rw [View.read_apply]
  show V c main_v44 _ = V c main_v44 u
  refine congrArg _ (funext fun a => Fin.ext ?_)
  match a with
  | ⟨0, _⟩ => show win1_4.index t (0 : Fin 2) * 1 + 1 * (u 0).val = (u 0).val; omega
  | ⟨1, _⟩ => show win1_4.index t (1 : Fin 2) * 128 + 1 * (u 1).val = (u 1).val; omega

/-- A row of the features' tile at point `t` is row `5000 t + p` of the features. -/
theorem xblk1_0 (c : Dev nD) (t : Fin cfg1.N) (p : Fin 5000) (k : Fin 128) (i : S100000x128.Idx)
    (hi0 : (i 0).val = t.val * 5000 + p.val) (hi1 : (i 1).val = k.val) :
    (iblk1 V c 0 t : Vec Ideal S5000x128 .f32) (ix2 p k) = (V c main_v28 : S100000x128.Idx → EReal) i := by
  obtain ⟨e0, e1, -⟩ := idx_facts1 t
  unfold iblk1
  rw [View.read_apply]
  show V c main_v28 _ = V c main_v28 i
  refine congrArg _ (funext fun a => Fin.ext ?_)
  match a with
  | ⟨0, _⟩ => show win1_0.index t (0 : Fin 2) * 5000 + 1 * p.val = (i 0).val; omega
  | ⟨1, _⟩ => show win1_0.index t (1 : Fin 2) * 128 + 1 * k.val = (i 1).val; omega

/-- A row of the aggregate's tile at point `t` is row `5000 t + p` of the aggregate. -/
theorem xblk1_1 (c : Dev nD) (t : Fin cfg1.N) (p : Fin 5000) (k : Fin 128) (i : S100000x128.Idx)
    (hi0 : (i 0).val = t.val * 5000 + p.val) (hi1 : (i 1).val = k.val) :
    (iblk1 V c 1 t : Vec Ideal S5000x128 .f32) (ix2 p k) = (V c main_v41 : S100000x128.Idx → EReal) i := by
  obtain ⟨-, -, e0, e1, -⟩ := idx_facts1 t
  unfold iblk1
  rw [View.read_apply]
  show V c main_v41 _ = V c main_v41 i
  refine congrArg _ (funext fun a => Fin.ext ?_)
  match a with
  | ⟨0, _⟩ => show win1_1.index t (0 : Fin 2) * 5000 + 1 * p.val = (i 0).val; omega
  | ⟨1, _⟩ => show win1_1.index t (1 : Fin 2) * 128 + 1 * k.val = (i 1).val; omega

/-- What point `t` writes back is block `t` of the layer of the arrays the region was entered with. -/
theorem flushed1_eq (c : Dev nD) (t : Fin cfg1.N) :
    (dat1 V c).flushed 5 t = ((cfg1.win 5).blk t).view.read (Elt Ideal)
      (lin (N := 100000) (K := 128) (C := 128) (V c main_v28) (V c main_v41) (V c main_v42) (V c main_v43) (V c main_v44)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [wblk1_2, wblk1_3, wblk1_4]
  obtain ⟨-, -, -, -, -, -, -, -, -, -, e0, e1⟩ := idx_facts1 t
  funext j
  rw [View.read_apply]
  refine tile1 _ _ _ _ _ _ _ j _ ?_ (fun k => ?_) (fun k => ?_)
  · show win1_5.index t (1 : Fin 2) * 128 + 1 * (j 1).val = (j 1).val
    omega
  · refine xblk1_0 V c t (j 0) k _ ?_ rfl
    show win1_5.index t (0 : Fin 2) * 5000 + 1 * (j 0).val = t.val * 5000 + (j 0).val
    omega
  · refine xblk1_1 V c t (j 0) k _ ?_ rfl
    show win1_5.index t (0 : Fin 2) * 5000 + 1 * (j 0).val = t.val * 5000 + (j 0).val
    omega

/-- An index of the result array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The twenty row blocks cover the result array: row `r` lies in block `r / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk1]
  obtain ⟨-, -, -, -, -, -, -, -, -, -, e0, e1⟩ := idx_facts1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]
    show (i 0).val / 5000 * 5000 ≤ (i 0).val ∧ (i 0).val < (i 0).val / 5000 * 5000 + 5000
    omega
  | ⟨1, _⟩ =>
    show win1_5.index _ (1 : Fin 2) * 128 ≤ (i 1).val ∧ (i 1).val < win1_5.index _ (1 : Fin 2) * 128 + 128
    rw [e1]
    omega

/-- After the region its result array holds the layer of the arrays the region was entered with. -/
theorem final1 (c : Dev nD) : (dat1 V c).arrAt 5 cfg1.N
    = lin (N := 100000) (K := 128) (C := 128) (V c main_v28) (V c main_v41) (V c main_v42) (V c main_v43) (V c main_v44) :=
  (dat1 V c).arrAt_eq_of_cover 5 _ (fun t _ => flushed1_eq V c t) cover1
end

end Cert.KernelIdeal.Hand

end
-- ==== Proof.Assembly.lean ====
import proofs.«155530_j81965155877636_1_alg».proof.Proof.KernelRun
import proofs.«155530_j81965155877636_1_alg».proof.Proof.Blocks
import proofs.«155530_j81965155877636_1_alg».proof.Proof.Gen.ReferenceIdeal.Run

/-!
# The kernel's result is the reference's

The kernel's result array holds the second layer of the arrays its second region was entered with; those are host
terms of the launch memory and of the first region's result, which is the rectified first layer of the arrays the first
region was entered with, host terms of the launch memory again. Written out, the kernel computes

  `layer₂ (h, sums h · (1 / max deg 1)),  h = max (layer₁ (x, sums x · (1 / max deg 1))) 0`

and the reference the same with each aggregate spelt `sums / max deg 1` and each layer's three addends taken in another
order. The neighbour sums, the degrees, the transposed weights and the index words are the same host terms on both
sides and are never opened: the two laws of `LibSageLayer` (a layer's entries do not depend on the order of its
addends; scaling by the reciprocal of a divisor that is at least one is dividing by it) turn the kernel's term
into the reference's.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Cert.LibSageLayer
open Idealize.ShloMosaic.StableHlo

variable (m : (ℓ : Loc nD τ sig) → Buf (Elt Ideal) ℓ) (ρ : Dev nD → PrngReg)

/-- After the first region the hidden-feature array holds the rectified layer of the arrays the region was entered with. -/
theorem W2_v28 (c : Dev nD) : W2 m ρ c (Proc.devRef .tc main_v28)
    = rect (N := 100000) (K := 64) (C := 128) (V1 m ρ c main_arg0) (V1 m ρ c main_v24) (V1 m ρ c main_v25) (V1 m ρ c main_v26) (V1 m ρ c main_v27) :=
  (W2_arr m ρ c 5).trans (final0 (V1 m ρ) c)

/-- After the second region the result array holds the layer of the arrays the region was entered with. -/
theorem W4_v45 (c : Dev nD) : W4 m ρ c (Proc.devRef .tc main_v45)
    = lin (N := 100000) (K := 128) (C := 128) (V3 m ρ c main_v28) (V3 m ρ c main_v41) (V3 m ρ c main_v42) (V3 m ρ c main_v43) (V3 m ρ c main_v44) :=
  (W4_arr m ρ c 5).trans (final1 (V3 m ρ) c)

/-! ## The entry contents of the two regions, read back to the launch memory -/

section Entry
variable (c : Dev nD)

theorem W1_arg0 : W1 m ρ c (Proc.devRef .tc main_arg0) = m ((c : Thread nD τ).loc main_arg0) := by
  dsimp only [W1, hostOps0]; after_results_simp <;> rfl
theorem W1_arg2 : W1 m ρ c (Proc.devRef .tc main_arg2) = m ((c : Thread nD τ).loc main_arg2) := by
  dsimp only [W1, hostOps0]; after_results_simp <;> rfl
theorem W1_arg3 : W1 m ρ c (Proc.devRef .tc main_arg3) = m ((c : Thread nD τ).loc main_arg3) := by
  dsimp only [W1, hostOps0]; after_results_simp <;> rfl
theorem W1_arg4 : W1 m ρ c (Proc.devRef .tc main_arg4) = m ((c : Thread nD τ).loc main_arg4) := by
  dsimp only [W1, hostOps0]; after_results_simp <;> rfl
theorem W1_arg5 : W1 m ρ c (Proc.devRef .tc main_arg5) = m ((c : Thread nD τ).loc main_arg5) := by
  dsimp only [W1, hostOps0]; after_results_simp <;> rfl
theorem W1_arg6 : W1 m ρ c (Proc.devRef .tc main_arg6) = m ((c : Thread nD τ).loc main_arg6) := by
  dsimp only [W1, hostOps0]; after_results_simp <;> rfl
theorem W1_arg7 : W1 m ρ c (Proc.devRef .tc main_arg7) = m ((c : Thread nD τ).loc main_arg7) := by
  dsimp only [W1, hostOps0]; after_results_simp <;> rfl

/-- The first region is entered with the features as launched, -/
theorem V1_arg0 : V1 m ρ c main_arg0 = m ((c : Thread nD τ).loc main_arg0) := W1_arg0 m ρ c
/-- the two weight matrices transposed, -/
theorem V1_v25 : V1 m ρ c main_v25
    = transpose S64x128 [1, 0] (m ((c : Thread nD τ).loc main_arg2)) transposes_S128x64_S64x128_1_0 := by
  dsimp only [V1, W1, hostOps0]; after_results_simp <;> rfl
theorem V1_v26 : V1 m ρ c main_v26
    = transpose S64x128 [1, 0] (m ((c : Thread nD τ).loc main_arg3)) transposes_S128x64_S64x128_1_0 := by
  dsimp only [V1, W1, hostOps0]; after_results_simp <;> rfl
/-- and the bias vector stood up as a row. -/
theorem V1_v27 : V1 m ρ c main_v27
    = shapeCast (S2 1 128) (m ((c : Thread nD τ).loc main_arg4) : (S1 128).Idx → EReal) shapeCasts_S128_S1x128 := by
  dsimp only [V1, W1, hostOps0]; after_results_simp <;> rfl

theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
/-- The index words and the reciprocal degrees pass through the first region untouched. -/
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v11 : W2 m ρ c (Proc.devRef .tc main_v11) = W1 m ρ c (Proc.devRef .tc main_v11) := W2_of_ne m ρ c main_v11 (by decide)

/-- The second region is entered with the hidden features as the first region left them, -/
theorem V3_v28 : V3 m ρ c main_v28 = W2 m ρ c (Proc.devRef .tc main_v28) := by
  dsimp only [V3, W3, hostOps1]; after_results_simp <;> rfl
/-- the second layer's weight matrices transposed, -/
theorem V3_v42 : V3 m ρ c main_v42
    = transpose S128x128 [1, 0] (m ((c : Thread nD τ).loc main_arg5)) transposes_S128x128_S128x128_1_0 := by
  dsimp only [V3, W3, hostOps1]; after_results_simp; rw [W2_arg5]
theorem V3_v43 : V3 m ρ c main_v43
    = transpose S128x128 [1, 0] (m ((c : Thread nD τ).loc main_arg6)) transposes_S128x128_S128x128_1_0 := by
  dsimp only [V3, W3, hostOps1]; after_results_simp; rw [W2_arg6]
/-- and its bias vector stood up as a row. -/
theorem V3_v44 : V3 m ρ c main_v44
    = shapeCast (S2 1 128) (m ((c : Thread nD τ).loc main_arg7) : (S1 128).Idx → EReal) shapeCasts_S128_S1x128 := by
  dsimp only [V3, W3, hostOps1]; after_results_simp; rw [W2_arg7]; rfl

end Entry

theorem plainR64 : Cert.LibPlainDot.Plain Cert.ReferenceIdeal.dot_S100000x64_S64x128_S100000x128_1_0_0_1_n_n := ⟨rfl, rfl, rfl, rfl, rfl, rfl⟩
theorem plainR128 : Cert.LibPlainDot.Plain Cert.ReferenceIdeal.dot_S100000x128_S128x128_S100000x128_1_0_0_1_n_n := ⟨rfl, rfl, rfl, rfl, rfl, rfl⟩

/-- The result array the kernel ends with is the reference's result term, at memories that agree on the arguments. -/
theorem value_eq (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)) :
    W4 m ρ c (Proc.devRef .tc main_v45) = Cert.ReferenceIdeal.Value.res_main_v62 (F := Ideal) m' c := by
  obtain ⟨a0, a1, a2, a3, a4, a5, a6, a7⟩ := hagree
  -- the second layer of the second region's entry arrays, in the host's spelling
  rw [W4_v45, V3_v42, V3_v43, V3_v44, V3_v28]
  rw [← host_lin Cert.ReferenceIdeal.dot_S100000x128_S128x128_S100000x128_1_0_0_1_n_n plainR128 _ _ _ _ _
    Cert.ReferenceIdeal.Gen.bcast_S128_S1x128_1 Cert.ReferenceIdeal.Gen.bcast_S1x128_S100000x128_0_1 shapeCasts_S128_S1x128]
  -- the second aggregate as a host term of the first region's result and of the launch memory
  dsimp only [V3, W3, hostOps1]
  after_results_simp
  rw [W2_v28, W2_v1, W2_v3, W2_v11]
  -- the first region's result: the rectified first layer, in the host's spelling
  rw [V1_arg0, V1_v25, V1_v26, V1_v27]
  rw [← host_rect Cert.ReferenceIdeal.dot_S100000x64_S64x128_S100000x128_1_0_0_1_n_n plainR64 _ _ _ _ _
    Cert.ReferenceIdeal.Gen.bcast_S128_S1x128_1 Cert.ReferenceIdeal.Gen.bcast_S1x128_S100000x128_0_1 shapeCasts_S128_S1x128
    Cert.ReferenceIdeal.Gen.bcast_S_S100000x128]
  -- the first aggregate, the index words and the reciprocal degrees as host terms of the launch memory
  dsimp only [V1, W1, hostOps0]
  after_results_simp
  -- both aggregates: scaled by the reciprocals = divided
  rw [mean_eq, mean_eq]
  unfold Cert.ReferenceIdeal.Value.res_main_v62
  rw [a0, a1, a2, a3, a4, a5, a6, a7]
  rfl

end Cert.KernelIdeal.Hand

end
-- ==== Proof.lean ====
/-
  Two layers of mean-aggregating graph convolution on 100000 nodes and 1600000 directed edges:
  `h = relu (mean_in(x) · W1_lᵀ + x · W1_rᵀ + b1)`, `out = mean_in(h) · W2_lᵀ + h · W2_rᵀ + b2`, where `mean_in(f)` at a node is
  the sum of `f` over the node's incoming edges divided by `max (in-degree) 1`.

  The kernel forms the neighbour sums and the degrees on the host, scales the sums by `1 / max deg 1`, and computes each
  layer in a pipelined region over twenty tiles of 5000 rows: two products into zero accumulators, their sum, plus the
  bias row, rectified in the first layer. The reference divides the sums by `max deg 1` and adds each layer's three
  terms as (aggregate product + bias) + feature product.

  Over the extended reals the two agree entry by entry: a layer's entry in row `r` depends only on row `r` of its
  operands, so the tiles' results are the blocks of one whole-array function (`Blocks`); addition of extended reals is
  commutative and associative, so the order of the three addends is immaterial; and `max deg 1 ≥ 1` is never zero, so
  dividing by it is by definition multiplying with its inverse, which is also what `1 / max deg 1` is (`LibSageLayer`).
  No entry needs to be finite for any of this, so the precondition is never opened. The neighbour sums, degrees and index
  words are the same host terms in both programs and stay closed (`Assembly`).

  The three frames: the two kernels' are the generated frame certificates; the reference's is its generated run with the
  result dropped. The idealization rewrote nothing, so `preserves` is trivial.
-/
import proofs.«155530_j81965155877636_1_alg».proof.Defs
import proofs.«155530_j81965155877636_1_alg».proof.Proof.Gen.Kernel
import proofs.«155530_j81965155877636_1_alg».proof.Proof.Gen.Kernel.Frame
import proofs.«155530_j81965155877636_1_alg».proof.Proof.Gen.KernelIdeal
import proofs.«155530_j81965155877636_1_alg».proof.Proof.Gen.KernelIdeal.Frame
import proofs.«155530_j81965155877636_1_alg».proof.Proof.Gen.ReferenceIdeal
import proofs.«155530_j81965155877636_1_alg».proof.Proof.Gen.ReferenceIdeal.Run
import proofs.«155530_j81965155877636_1_alg».proof.Proof.Gen.Pre_finite_inputs
import proofs.«155530_j81965155877636_1_alg».proof.Proof.KernelRun
import proofs.«155530_j81965155877636_1_alg».proof.Proof.Assembly

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run, and the kernel's result array ends at the reference's result term. -/
theorem algebraic : Cert.algebraic_KernelIdeal_ReferenceIdeal := by
  intro m ρ m' ρ' _ hagree
  refine ⟨fun c => Cert.KernelIdeal.Gen.W4 m ρ c (Proc.devRef .tc Cert.KernelIdeal.main_v45),
    Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  exact (Cert.KernelIdeal.Hand.value_eq m ρ m' c (hagree c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
